-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S128x64 .f32) (main_arg7 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S50000x128 .f32) (main_arg1 : IVec S2x1600000 32) (main_arg2 : FVec F S128x128 .f32) (main_arg3 : FVec F S128x128 .f32) (main_arg4 : FVec F S128 .f32) (main_arg5 : FVec F S128x64 .f32) (main_arg6 : FVec F S128x64 .f32) (main_arg7 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_v13 main_v16
-- ==== Kernel.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S5000x128 : Shape := ⟨2, ![5000, 128]⟩
abbrev S1x64 : Shape := ⟨2, ![1, 64]⟩
abbrev S50000x64 : Shape := ⟨2, ![50000, 64]⟩
abbrev S5000x64 : Shape := ⟨2, ![5000, 64]⟩

abbrev nBuf : Space → Nat
  | .hbm => 66
  | .vmem => 18
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S50000x128, .f32⟩
  | .hbm, ⟨23, _⟩ => ⟨S1600000x1, .i32⟩
  | .hbm, ⟨24, _⟩ => ⟨S50000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128, .f32⟩
  | .hbm, ⟨38, _⟩ => ⟨S50000x128, .f32⟩
  | .hbm, ⟨39, _⟩ => ⟨S_, .i32⟩
  | .hbm, ⟨40, _⟩ => ⟨S1600000, .i32⟩
  | .hbm, ⟨41, _⟩ => ⟨S1600000, .i1⟩
  | .hbm, ⟨42, _⟩ => ⟨S_, .i32⟩
  | .hbm, ⟨43, _⟩ => ⟨S1600000, .i32⟩
  | .hbm, ⟨44, _⟩ => ⟨S1600000, .i32⟩
  | .hbm, ⟨45, _⟩ => ⟨S1600000, .i32⟩
  | .hbm, ⟨46, _⟩ => ⟨S1600000x1, .i32⟩
  | .hbm, ⟨47, _⟩ => ⟨S1600000x128, .f32⟩
  | .hbm, ⟨48, _⟩ => ⟨S_, .f32⟩
  | .hbm, ⟨49, _⟩ => ⟨S50000x128, .f32⟩
  | .hbm, ⟨50, _⟩ => ⟨S1600000x1, .i32⟩
  | .hbm, ⟨51, _⟩ => ⟨S50000x128, .f32⟩
  | .hbm, ⟨52, _⟩ => ⟨S_, .f32⟩
  | .hbm, ⟨53, _⟩ => ⟨S1600000, .f32⟩
  | .hbm, ⟨54, _⟩ => ⟨S_, .f32⟩
  | .hbm, ⟨55, _⟩ => ⟨S50000, .f32⟩
  | .hbm, ⟨56, _⟩ => ⟨S1600000x1, .i32⟩
  | .hbm, ⟨57, _⟩ => ⟨S50000, .f32⟩
  | .hbm, ⟨58, _⟩ => ⟨S_, .f32⟩
  | .hbm, ⟨59, _⟩ => ⟨S50000, .f32⟩
  | .hbm, ⟨60, _⟩ => ⟨S50000, .f32⟩
  | .hbm, ⟨61, _⟩ => ⟨S50000x1, .f32⟩
  | .hbm, ⟨62, _⟩ => ⟨S50000x128, .f32⟩
  | .hbm, ⟨63, _⟩ => ⟨S50000x128, .f32⟩
  | .hbm, ⟨64, _⟩ => ⟨S1x64, .f32⟩
  | .hbm, ⟨65, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S128x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c_4 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_cst_9 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S50000x128.size a
  hwx0_5 : ∀ i : grid0.Coords, EltTy.bits .f32 = 32 ∨ (Rect.block (s := S50000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x64.size a ≤ S128x64.size a
  hwx1_3 : ∀ i : grid1.Coords, EltTy.bits .f32 = 32 ∨ (Rect.block (s := S128x64) S128x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S128x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v44) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x1600000 : Shape := ⟨2, ![2, 1600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x1600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S128x64, .f32⟩
  | .hbm, ⟨7, _⟩ => ⟨S64, .f32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S50000x128, .f32⟩
  | .hbm, ⟨23, _⟩ => ⟨S1600000x1, .i32⟩
  | .hbm, ⟨24, _⟩ => ⟨S50000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S50000, .f32⟩
  | .hbm, ⟨29, _⟩ => ⟨S1600000x1, .i32⟩
  | .hbm, ⟨30, _⟩ => ⟨S50000, .f32⟩
  | .hbm, ⟨31, _⟩ => ⟨S_, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S50000x128, .f32⟩
  | .hbm, ⟨38, _⟩ => ⟨S50000x128, .f32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .f32⟩
  | .hbm, ⟨43, _⟩ => ⟨S_, .f32⟩
  | .hbm, ⟨44, _⟩ => ⟨S50000x128, .f32⟩
  | .hbm, ⟨45, _⟩ => ⟨S50000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S50000x128, .f32⟩
  | .hbm, ⟨57, _⟩ => ⟨S1600000x1, .i32⟩
  | .hbm, ⟨58, _⟩ => ⟨S50000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S50000, .f32⟩
  | .hbm, ⟨63, _⟩ => ⟨S1600000x1, .i32⟩
  | .hbm, ⟨64, _⟩ => ⟨S50000, .f32⟩
  | .hbm, ⟨65, _⟩ => ⟨S_, .f32⟩
  | .hbm, ⟨66, _⟩ => ⟨S50000, .f32⟩
  | .hbm, ⟨67, _⟩ => ⟨S50000, .f32⟩
  | .hbm, ⟨68, _⟩ => ⟨S50000x1, .f32⟩
  | .hbm, ⟨69, _⟩ => ⟨S50000x128, .f32⟩
  | .hbm, ⟨70, _⟩ => ⟨S50000x128, .f32⟩
  | .hbm, ⟨71, _⟩ => ⟨S50000x64, .f32⟩
  | .hbm, ⟨72, _⟩ => ⟨S50000x64, .f32⟩
  | .hbm, ⟨73, _⟩ => ⟨S50000x64, .f32⟩
  | .hbm, ⟨74, _⟩ => ⟨S1x64, .f32⟩
  | .hbm, ⟨75, _⟩ => ⟨S50000x64, .f32⟩
  | .hbm, ⟨76, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S1600000x1_S1600000x128_1_0_n_n_0_1_1128_wf : GatherDims.WF S50000x128 S1600000x1 S1600000x128 [1] [0] [] [0] [] 1 ![1, 128]
  scatter_S50000x128_S1600000x1_S1600000x128_1_0_0_1_wf : ScatterDims.WF S50000x128 S1600000x1 S1600000x128 [1] [0] [0] 1
  scatter_S50000_S1600000x1_S1600000_n_0_0_1_wf : ScatterDims.WF S50000 S1600000x1 S1600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S1600000x1_S1600000x128_1_0_n_n_0_1_1128 : GatherDims S50000x128 S1600000x1 S1600000x128 where
  offsetDims := [1]
  collapsedSliceDims := [0]
  operandBatchingDims := []
  startIndicesBatchingDims := []
  startIndexMap := [0]
  indexVectorDim := 1
  sliceSizes := ![1, 128]
  wf := gather_S50000x128_S1600000x1_S1600000x128_1_0_n_n_0_1_1128_wf
def scatter_S50000x128_S1600000x1_S1600000x128_1_0_0_1 : ScatterDims S50000x128 S1600000x1 S1600000x128 where
  updateWindowDims := [1]
  insertedWindowDims := [0]
  scatterDimsToOperandDims := [0]
  indexVectorDim := 1
  wf := scatter_S50000x128_S1600000x1_S1600000x128_1_0_0_1_wf
def scatter_S50000_S1600000x1_S1600000_n_0_0_1 : ScatterDims S50000 S1600000x1 S1600000 where
  updateWindowDims := []
  insertedWindowDims := [0]
  scatterDimsToOperandDims := [0]
  indexVectorDim := 1
  wf := scatter_S50000_S1600000x1_S1600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its result kept.

  The program is four stretches in order: host operations (the first mean over neighbours), the first layer's kernel,
  host operations again (the mean over neighbours of the hidden features), the second layer's kernel. Each stretch
  starts from the buffer contents the previous one left, so the contents after the last stretch are a fold through
  the four. Every weakly fair execution terminates without a fault, and in its final state the result buffer holds
  what that fold gives it, while each argument buffer holds what it held at launch.
-/
import proofs.«138133_j4612794876017_1_alg».proof.Proof.Gen.KernelIdeal.Frame

set_option maxRecDepth 16384

noncomputable section

namespace Cert.Sage.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any launch memory with zero counters the program terminates, nothing faulting; the result buffer ends at the
    contents after the last stretch, and the eight arguments end as launched. -/
theorem run_main : θ_run defs (onTc (τ := τ) (main (F := F))) ⟨m, fun _ => 0, ρ⟩ (fun r => ∀ c : Dev nD,
      r.2.mem ((c.tc : Thread nD τ).loc main_v45) = W4 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v45 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Sage.Run

end
-- ==== Proof.Layer.lean ====
/-
  One layer of the network, read at coordinates on the extended reals.

  Node p's new feature q is
      (sum over k of agg (p, k) · Wl (k, q))  +  (sum over k of x (p, k) · Wr (k, q))  +  b q :
  the mean of the neighbours' features through one matrix, the node's own features through a second one, and a bias.
  The hidden layer then takes the larger of that number and a constant.

  Row p of the result reads row p of the two left operands and nothing else of them. So a stretch of rows of the
  result is the same function of the same stretch of rows of the operands: this is what lets a layer be computed one
  block of rows at a time.
-/
import Idealize.ShloMosaic.PureOps.Ideal
import Idealize.ShloMosaic.Lib.ValueIdx

noncomputable section

namespace Cert.Sage

open Idealize.ShloMosaic Idealize.ShloMosaic.ValueIdx
open scoped BigOperators

variable {M K N : ℕ}

/-- Feature q of node p after one layer, before any activation. The bias is given by its entries. -/
def sageAt (l₁ l₂ : (⟨2, ![M, K]⟩ : Shape).Idx → EReal) (W₁ W₂ : (⟨2, ![K, N]⟩ : Shape).Idx → EReal)
    (b : Fin N → EReal) (p : Fin M) (q : Fin N) : EReal :=
  ((∑ k : Fin K, l₁ (ix2 p k) * W₁ (ix2 k q)) + ∑ k : Fin K, l₂ (ix2 p k) * W₂ (ix2 k q)) + b q

/-- The layer as a whole array. -/
def layer (l₁ l₂ : (⟨2, ![M, K]⟩ : Shape).Idx → EReal) (W₁ W₂ : (⟨2, ![K, N]⟩ : Shape).Idx → EReal)
    (b : Fin N → EReal) : (⟨2, ![M, N]⟩ : Shape).Idx → EReal :=
  fun i => sageAt l₁ l₂ W₁ W₂ b (i 0) (i 1)

/-- The layer followed by the maximum with a constant w, as a whole array. -/
def layerMax (w : EReal) (l₁ l₂ : (⟨2, ![M, K]⟩ : Shape).Idx → EReal) (W₁ W₂ : (⟨2, ![K, N]⟩ : Shape).Idx → EReal)
    (b : Fin N → EReal) : (⟨2, ![M, N]⟩ : Shape).Idx → EReal :=
  fun i => max (sageAt l₁ l₂ W₁ W₂ b (i 0) (i 1)) w

theorem layer_apply (l₁ l₂ : (⟨2, ![M, K]⟩ : Shape).Idx → EReal) (W₁ W₂ : (⟨2, ![K, N]⟩ : Shape).Idx → EReal)
    (b : Fin N → EReal) (p : Fin M) (q : Fin N) :
    layer l₁ l₂ W₁ W₂ b (ix2 p q) = sageAt l₁ l₂ W₁ W₂ b p q := rfl

theorem layerMax_apply (w : EReal) (l₁ l₂ : (⟨2, ![M, K]⟩ : Shape).Idx → EReal)
    (W₁ W₂ : (⟨2, ![K, N]⟩ : Shape).Idx → EReal) (b : Fin N → EReal) (p : Fin M) (q : Fin N) :
    layerMax w l₁ l₂ W₁ W₂ b (ix2 p q) = max (sageAt l₁ l₂ W₁ W₂ b p q) w := rfl

/-- A row of the result reads that row of the left operands only: two pairs of left operands, possibly of different
    heights, that agree on row p' of the one and row p of the other give the same feature there. -/
theorem sageAt_rows {M' : ℕ} (l₁ l₂ : (⟨2, ![M, K]⟩ : Shape).Idx → EReal) (l₁' l₂' : (⟨2, ![M', K]⟩ : Shape).Idx → EReal)
    (W₁ W₂ : (⟨2, ![K, N]⟩ : Shape).Idx → EReal) (b b' : Fin N → EReal) (p : Fin M) (p' : Fin M') (q : Fin N)
    (h₁ : ∀ k : Fin K, l₁' (ix2 p' k) = l₁ (ix2 p k)) (h₂ : ∀ k : Fin K, l₂' (ix2 p' k) = l₂ (ix2 p k))
    (hb : b' q = b q) :
    sageAt l₁' l₂' W₁ W₂ b' p' q = sageAt l₁ l₂ W₁ W₂ b p q := by
  unfold sageAt
  simp only [h₁, h₂, hb]

end Cert.Sage

end
-- ==== Proof.Mean.lean ====
/-
  The mean over a node's in-neighbours, as one function.

  An edge list gives each edge a source node and a destination node. Every edge carries its source's feature row (a
  negative source number counted from the end, as array indexing does) to its destination, where the rows are added up;
  the number of edges arriving at each node is counted the same way; and each node's sum is divided by its count, or by
  one where the count is smaller than one. Both programs apply exactly this chain of host operations, twice: to the input
  features and to the hidden features. It is named here once and never opened: the two programs agree on what goes into
  it, and that is all the certificate needs of it.
-/
import proofs.«138133_j4612794876017_1_alg».proof.Proof.Gen.KernelIdeal
import Idealize.ShloMosaic.PureOps.Ideal

noncomputable section

namespace Cert.Sage

open Idealize.ShloMosaic Cert.KernelIdeal Cert.KernelIdeal.Gen

/-- The source node of every edge: row 0 of the edge list. -/
def edgeSources (e : IVec S2x1600000 32) : IVec S1600000 32 :=
  shapeCast S1600000 (extractStridedSlice S1x1600000 ![0, 0] e slices_S2x1600000_S1x1600000_0_0) shapeCasts_S1x1600000_S1600000

/-- The destination node of every edge: row 1 of the edge list. -/
def edgeTargets (e : IVec S2x1600000 32) : IVec S1600000 32 :=
  shapeCast S1600000 (extractStridedSlice S1x1600000 ![1, 0] e slices_S2x1600000_S1x1600000_1_0) shapeCasts_S1x1600000_S1600000

/-- Each node's mean of the feature rows its incoming edges carry, from the features h and the edges' sources and
    destinations. -/
def neighbourMean (h : FVec Ideal S50000x128 .f32) (src dst : IVec S1600000 32) : FVec Ideal S50000x128 .f32 :=
  Host.divf
    (Host.scatterAdd scatter_S50000x128_S1600000x1_S1600000x128_1_0_0_1
      (broadcastInDim S50000x128 ![] bcast_S_S50000x128 (constant (F := Ideal) S_ .f32 0x00000000#32))
      (broadcastInDim S1600000x1 ![0] bcast_S1600000_S1600000x1_0 dst)
      (Host.gather gather_S50000x128_S1600000x1_S1600000x128_1_0_n_n_0_1_1128 h
        (broadcastInDim S1600000x1 ![0] bcast_S1600000_S1600000x1_0
          (select (cmpi .slt src (broadcastInDim S1600000 ![] bcast_S_S1600000 (constantI S_ 32 0#32)))
            (addi src (broadcastInDim S1600000 ![] bcast_S_S1600000 (constantI S_ 32 50000#32))) src))))
    (broadcastInDim S50000x128 ![0, 1] bcast_S50000x1_S50000x128_0_1
      (broadcastInDim S50000x1 ![0] bcast_S50000_S50000x1_0
        (maximumf
          (Host.scatterAdd scatter_S50000_S1600000x1_S1600000_n_0_0_1
            (broadcastInDim S50000 ![] bcast_S_S50000 (constant (F := Ideal) S_ .f32 0x00000000#32))
            (broadcastInDim S1600000x1 ![0] bcast_S1600000_S1600000x1_0 dst)
            (broadcastInDim S1600000 ![] bcast_S_S1600000 (constant (F := Ideal) S_ .f32 0x3F800000#32)))
          (broadcastInDim S50000 ![] bcast_S_S50000 (constant (F := Ideal) S_ .f32 0x3F800000#32)))))

end Cert.Sage

end
-- ==== Proof.Network.lean ====
/-
  The whole two-layer network as one function of its eight arguments, on the extended reals.

  Hidden features: the layer of (the mean over in-neighbours of the input features, the input features) through the
  first pair of matrices and the first bias, then the maximum with the float zero. Output features: the layer of (the
  mean over in-neighbours of the hidden features, the hidden features) through the second pair and the second bias.
-/
import proofs.«138133_j4612794876017_1_alg».proof.Proof.Layer
import proofs.«138133_j4612794876017_1_alg».proof.Proof.Mean

noncomputable section

namespace Cert.Sage

open Idealize.ShloMosaic Idealize.ShloMosaic.ValueIdx Cert.KernelIdeal

/-- The hidden features. -/
def hiddenFeatures (x : FVec Ideal S50000x128 .f32) (e : IVec S2x1600000 32) (Wl Wr : FVec Ideal S128x128 .f32)
    (b : FVec Ideal S128 .f32) : FVec Ideal S50000x128 .f32 :=
  layerMax (M := 50000) (K := 128) (N := 128) (Ideal.ofBits .f32 0x00000000#32)
    (neighbourMean x (edgeSources e) (edgeTargets e)) x Wl Wr (fun q => b (ix1 q))

/-- The output features from the hidden ones. -/
def outputFeatures (h : FVec Ideal S50000x128 .f32) (e : IVec S2x1600000 32) (Wl Wr : FVec Ideal S128x64 .f32)
    (b : FVec Ideal S64 .f32) : FVec Ideal S50000x64 .f32 :=
  layer (M := 50000) (K := 128) (N := 64) (neighbourMean h (edgeSources e) (edgeTargets e)) h Wl Wr (fun q => b (ix1 q))

/-- The network. -/
def network (x : FVec Ideal S50000x128 .f32) (e : IVec S2x1600000 32) (W1l W1r : FVec Ideal S128x128 .f32)
    (b1 : FVec Ideal S128 .f32) (W2l W2r : FVec Ideal S128x64 .f32) (b2 : FVec Ideal S64 .f32) : FVec Ideal S50000x64 .f32 :=
  outputFeatures (hiddenFeatures x e W1l W1r b1) e W2l W2r b2

end Cert.Sage

end
-- ==== Proof.LibPlainDot.lean ====
/-
  A plain matrix product read at coordinates. For dimension numbers that contract the left operand's columns with
  the right operand's rows and have no batch axis, a product of an `[M, K]` by a `[K, N]` matrix into a zero accumulator
  is, at the extended reals and at `(p, q)`, the sum over `k` of `l (p, k) · r (k, q)`.
-/
import Idealize.ShloMosaic.PureOps.Ideal.Laws
import Idealize.ShloMosaic.Lib.ValueIdx

noncomputable section

namespace Cert.LibPlainDot

open Idealize.ShloMosaic Idealize.ShloMosaic.ValueIdx
open scoped BigOperators

variable {M K N : Nat} (d : DotDims ⟨2, ![M, K]⟩ ⟨2, ![K, N]⟩ ⟨2, ![M, N]⟩)

/-- The left operand's row coordinate is the result's row. -/
theorem lhsIdx_row (hlb : d.lhsBatch = []) (hln : d.lhsNonContracting = [0]) (j : (⟨2, ![M, N]⟩ : Shape).Idx) (k : d.contr.Idx) :
    (d.lhsIdx j k 0).val = (j 0).val := by
  have hb : (0 : Fin 2) ∉ d.lhsBatch := by rw [hlb]; exact List.not_mem_nil
  have hn : (0 : Fin 2) ∈ d.lhsNonContracting := by rw [hln]; exact List.mem_singleton.mpr rfl
  unfold DotDims.lhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln])

/-- The right operand's column coordinate is the result's column. -/
theorem rhsIdx_col (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  have hb : (1 : Fin 2) ∉ d.rhsBatch := by rw [hrb]; exact List.not_mem_nil
  have hn : (1 : Fin 2) ∈ d.rhsNonContracting := by rw [hrn]; exact List.mem_singleton.mpr rfl
  unfold DotDims.rhsIdx
  rw [dif_neg hb, dif_pos hn]
  simp only [Fin.val_cast]
  have key : ∀ (p q : Nat) (hp : p < 2) (hq : q < 2), p = q → (j ⟨p, hp⟩).val = (j ⟨q, hq⟩).val :=
    fun p q hp hq h => by subst h; rfl
  exact key _ _ _ _ (by simp [hlb, hln, hrn])

/-- The product at `(p, q)`. -/
theorem matmul_plain_apply {φ₁ φ₂ : FTy} (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ k : Fin K, l (ix2 p k) * r (ix2 k q) := by
  have hr : d.contr.rank = 1 := by rw [d.rank_contr, hlc]; rfl
  have hs : d.contr.size ⟨0, by omega⟩ = K := by
    rw [d.size_contr 0 (by rw [hlc]; exact Nat.one_pos)]
    simp [hlc]
  rw [Ideal.matmul_constant_zero_apply, ← Equiv.sum_comp (contrEquiv1 d K hr hs).symm]
  refine Finset.sum_congr rfl fun k _ => ?_
  have e0 : (((contrEquiv1 d K hr hs).symm k) ⟨0, by omega⟩ : ℕ) = k.val := contrEquiv1_symm_val d K hr hs k
  have hl : d.lhsIdx (ix2 p q) ((contrEquiv1 d K hr hs).symm k) = ix2 p k := by
    refine funext fun a => Fin.ext ?_
    match a with
    | ⟨0, _⟩ => exact lhsIdx_row d hlb hln (ix2 p q) _
    | ⟨1, _⟩ => exact (d.lhsIdx_val_of_single (cl := 1) hlc (ix2 p q) _).trans e0
  have hrr : d.rhsIdx (ix2 p q) ((contrEquiv1 d K hr hs).symm k) = ix2 k q := by
    refine funext fun a => Fin.ext ?_
    match a with
    | ⟨0, _⟩ => exact (d.rhsIdx_val_of_single (cr := 0) hrc (ix2 p q) _).trans e0
    | ⟨1, _⟩ => exact rhsIdx_col d hlb hrb hln hrn (ix2 p q) _
  rw [hl, hrr]

end Cert.LibPlainDot

end
-- ==== Proof.Payload.lean ====
/-
  What each kernel stores, read at a row and a column of its block.

  A kernel holds a block of 5000 rows of the two left operands, both weight matrices whole and the bias as one row.
  It rounds all four to a narrower float format — which on the extended reals changes nothing —, multiplies each left
  block by its matrix into an accumulator that starts at zero, adds the two products, and adds the bias row repeated
  over the rows; the first kernel then takes the maximum with zero. At (p, q) that is the layer's feature q of the
  block's row p: each product into a zero accumulator is the plain sum over k of l (p, k) · W (k, q).
-/
import proofs.«138133_j4612794876017_1_alg».proof.Proof.Gen.KernelIdeal.Skeleton
import proofs.«138133_j4612794876017_1_alg».proof.Proof.Layer
import proofs.«138133_j4612794876017_1_alg».proof.Proof.LibPlainDot
import Idealize.ShloMosaic.Lib.ValueLayout
import Idealize.ShloMosaic.Lib.Pipeline.Value

noncomputable section

namespace Cert.Sage

open Idealize.ShloMosaic Idealize.ShloMosaic.ValueIdx Cert.KernelIdeal Cert.KernelIdeal.Gen
open scoped BigOperators

/-- The first kernel's stored value at (p, q): the larger of the layer's feature and the float zero. -/
theorem hidden_block_apply (x0 x1 : Vec Ideal S5000x128 .f32) (x2 x3 : Vec Ideal S128x128 .f32)
    (x4 : Vec Ideal S1x128 .f32) (p : Fin 5000) (q : Fin 128) :
    k0_pay1 (F := Ideal) x0 x1 x2 x3 x4 (ix2 p q)
      = max (sageAt x0 x1 x2 x3 (fun q => x4 (ix2 (0 : Fin 1) q)) p q) (Ideal.ofBits .f32 0x00000000#32) := by
  unfold k0_pay1 sageAt
  dsimp only
  unfold matmul
  rw [maximumf_apply, addf_apply, addf_apply, broadcast_apply,
    Cert.LibPlainDot.matmul_plain_apply _ rfl rfl rfl rfl rfl rfl, Cert.LibPlainDot.matmul_plain_apply _ rfl rfl rfl rfl rfl rfl,
    broadcastTo_1b_ab_apply]
  simp only [shapeCast_self, truncf_apply]
  rfl

/-- The second kernel's stored value at (p, q): the layer's feature, no activation. -/
theorem out_block_apply (x0 x1 : Vec Ideal S5000x128 .f32) (x2 x3 : Vec Ideal S128x64 .f32)
    (x4 : Vec Ideal S1x64 .f32) (p : Fin 5000) (q : Fin 64) :
    k1_pay1 (F := Ideal) x0 x1 x2 x3 x4 (ix2 p q)
      = sageAt x0 x1 x2 x3 (fun q => x4 (ix2 (0 : Fin 1) q)) p q := by
  unfold k1_pay1 sageAt
  dsimp only
  unfold matmul
  rw [addf_apply, addf_apply,
    Cert.LibPlainDot.matmul_plain_apply _ rfl rfl rfl rfl rfl rfl, Cert.LibPlainDot.matmul_plain_apply _ rfl rfl rfl rfl rfl rfl,
    broadcastTo_1b_ab_apply]
  simp only [shapeCast_self, truncf_apply]

end Cert.Sage

end
-- ==== Proof.HiddenArray.lean ====
/-
  The first layer's kernel: the hidden features as one array.

  The grid has ten points; point t works on rows 5000·t … 5000·t + 4999 of the two left operands and of the result, and
  on the whole of the two weight matrices and of the bias row. Its kernel's stored block is the layer's features of those
  rows (the block-level reading of the body), and a row of the layer reads only the same row of the left operands, so
  what point t writes back is rows 5000·t … of ONE array: the layer of the whole operands as the kernel's region finds
  them. The ten blocks tile the 50000 rows (row r is in block r / 5000), so after the last point the result array is that
  layer, everywhere.
-/
import proofs.«138133_j4612794876017_1_alg».proof.Proof.Gen.KernelIdeal.Frame
import proofs.«138133_j4612794876017_1_alg».proof.Proof.Payload
import Idealize.ShloMosaic.Lib.Pipeline.Value

set_option maxRecDepth 16384

noncomputable section

namespace Cert.Sage.Hidden

open Cert.Sage Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the buffer contents when the kernel's region is entered: a parameter
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two left operands and the result move one block of rows per point, the
    weight matrices and the bias row stay. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem point_lt (t : Fin cfg0.N) : t.val < 10 := lt_of_lt_of_eq t.isLt N_0

/-- The layer of the whole operands as the region finds them. -/
def whole (c : Dev nD) : S50000x128.Idx → EReal :=
  layerMax (M := 50000) (K := 128) (N := 128) (Ideal.ofBits .f32 0x00000000#32) (V c main_v22) (V c main_arg0) (V c main_arg2) (V c main_arg3)
    (fun q => V c main_v23 (ix2 (0 : Fin 1) q))

/-- Row p of point t's block of the first left operand is row 5000·t + p of the array. -/
theorem left0_row (c : Dev nD) (t : Fin cfg0.N) (p : Fin 5000) (k : Fin 128) (P : Fin 50000) (hP : P.val = t.val * 5000 + p.val) :
    iblk0 V c 0 t (ix2 p k) = V c main_v22 (ix2 P k) := by
  obtain ⟨e0, e1, -⟩ := idx_facts t
  show V c main_v22 (((cfg0.win 0).blk t).view.emb (ix2 p k)) = V c main_v22 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- The same for the second left operand. -/
theorem left1_row (c : Dev nD) (t : Fin cfg0.N) (p : Fin 5000) (k : Fin 128) (P : Fin 50000) (hP : P.val = t.val * 5000 + p.val) :
    iblk0 V c 1 t (ix2 p k) = V c main_arg0 (ix2 P k) := by
  obtain ⟨-, -, e0, e1, -⟩ := idx_facts t
  show V c main_arg0 (((cfg0.win 1).blk t).view.emb (ix2 p k)) = V c main_arg0 (ix2 P k)
  refine congrArg _ (funext fun a => Fin.ext ?_)
  match a with
  | ⟨0, _⟩ => show win0_1.index t (0 : Fin 2) * 5000 + 1 * p.val = P.val; omega
  | ⟨1, _⟩ => show win0_1.index t (1 : Fin 2) * 128 + 1 * k.val = k.val; omega

/-- Every point's block of the first weight matrix is the whole matrix. -/
theorem weight0_whole (c : Dev nD) (t : Fin cfg0.N) (k : Fin 128) (q : Fin 128) :
    iblk0 V c 2 t (ix2 k q) = V c main_arg2 (ix2 k q) := by
  obtain ⟨-, -, -, -, e0, e1, -⟩ := idx_facts t
  show V c main_arg2 (((cfg0.win 2).blk t).view.emb (ix2 k q)) = V c main_arg2 (ix2 k q)
  refine congrArg _ (funext fun a => Fin.ext ?_)
  match a with
  | ⟨0, _⟩ => show win0_2.index t (0 : Fin 2) * 128 + 1 * k.val = k.val; omega
  | ⟨1, _⟩ => show win0_2.index t (1 : Fin 2) * 128 + 1 * q.val = q.val; omega

/-- And of the second. -/
theorem weight1_whole (c : Dev nD) (t : Fin cfg0.N) (k : Fin 128) (q : Fin 128) :
    iblk0 V c 3 t (ix2 k q) = V c main_arg3 (ix2 k q) := by
  obtain ⟨-, -, -, -, -, -, e0, e1, -⟩ := idx_facts t
  show V c main_arg3 (((cfg0.win 3).blk t).view.emb (ix2 k q)) = V c main_arg3 (ix2 k q)
  refine congrArg _ (funext fun a => Fin.ext ?_)
  match a with
  | ⟨0, _⟩ => show win0_3.index t (0 : Fin 2) * 128 + 1 * k.val = k.val; omega
  | ⟨1, _⟩ => show win0_3.index t (1 : Fin 2) * 128 + 1 * q.val = q.val; omega

/-- Every point's block of the bias row is the whole row. -/
theorem bias_whole (c : Dev nD) (t : Fin cfg0.N) (q : Fin 128) :
    iblk0 V c 4 t (ix2 (0 : Fin 1) q) = V c main_v23 (ix2 (0 : Fin 1) q) := by
  obtain ⟨-, -, -, -, -, -, -, -, e0, e1, -⟩ := idx_facts t
  show V c main_v23 (((cfg0.win 4).blk t).view.emb (ix2 (0 : Fin 1) q)) = V c main_v23 (ix2 (0 : Fin 1) q)
  refine congrArg _ (funext fun a => Fin.ext ?_)
  match a with
  | ⟨0, _⟩ => show win0_4.index t (0 : Fin 2) * 1 + 1 * 0 = 0; omega
  | ⟨1, _⟩ => show win0_4.index t (1 : Fin 2) * 128 + 1 * q.val = q.val; omega

/-- The layer's feature (p, q) of a point's blocks is the layer's feature (5000·t + p, q) of the whole operands. -/
theorem block_feature (c : Dev nD) (t : Fin cfg0.N) (p : Fin 5000) (q : Fin 128) (P : Fin 50000) (hP : P.val = t.val * 5000 + p.val) :
    sageAt (iblk0 V c 0 t) (iblk0 V c 1 t) (iblk0 V c 2 t) (iblk0 V c 3 t) (fun q => iblk0 V c 4 t (ix2 (0 : Fin 1) q)) p q
      = sageAt (V c main_v22) (V c main_arg0) (V c main_arg2) (V c main_arg3) (fun q => V c main_v23 (ix2 (0 : Fin 1) q)) P q := by
  unfold sageAt
  dsimp only
  rw [bias_whole V c t q]
  refine congrArg (· + _) (congrArg₂ (· + ·) (Finset.sum_congr rfl fun k _ => ?_) (Finset.sum_congr rfl fun k _ => ?_))
  · rw [left0_row V c t p k P hP, weight0_whole V c t k q]
  · rw [left1_row V c t p k P hP, weight1_whole V c t k q]

/-- What point t writes back is block t of the one array. -/
theorem flushed (c : Dev nD) (t : Fin cfg0.N) :
    (dat0 V c).flushed 5 t = ((cfg0.win 5).blk t).view.read (Elt Ideal) (whole V c) := by
  show (cfg0.win 5).cut (grid0.coords t) ((dat0 V c).after 5 t) = _
  rw [after0_5]
  unfold out0_5
  rw [View.canon_unit_zero zero_offsets]
  simp only [View.ld_unit_zero (S := S5000x128) zero_offsets, View.ld_unit_zero (S := S128x128) zero_offsets, View.ld_unit_zero (S := S1x128) zero_offsets]
  funext j
  obtain ⟨p, q, rfl⟩ : ∃ (p : Fin 5000) (q : Fin 128), j = ix2 p q := ⟨j 0, j 1, eq_ix2 j⟩
  have ht := point_lt t
  obtain ⟨-, -, -, -, -, -, -, -, -, -, e0, e1⟩ := idx_facts t
  have hrow : t.val * 5000 + p.val < 50000 := by omega
  have hemb : ((cfg0.win 5).blk t).view.emb (ix2 p q) = ix2 (⟨t.val * 5000 + p.val, hrow⟩ : Fin 50000) q :=
    funext fun a => Fin.ext (by
      match a with
      | ⟨0, _⟩ => show win0_5.index t (0 : Fin 2) * 5000 + 1 * p.val = t.val * 5000 + p.val; omega
      | ⟨1, _⟩ => show win0_5.index t (1 : Fin 2) * 128 + 1 * q.val = q.val; omega)
  show k0_pay1 (iblk0 V c 0 t) (iblk0 V c 1 t) (iblk0 V c 2 t) (iblk0 V c 3 t) (iblk0 V c 4 t) (ix2 p q)
    = whole V c (((cfg0.win 5).blk t).view.emb (ix2 p q))
  rw [hemb, hidden_block_apply]
  unfold whole
  rw [layerMax_apply, block_feature V c t p q ⟨t.val * 5000 + p.val, hrow⟩ rfl]

/-- An index of the array is in point t's block iff each coordinate is in the block's range on its axis. -/
theorem mem_block (t : Fin cfg0.N) (i : S50000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v24).slice (win0_5.rect t)).set ↔ _
  rw [View.set_slice_whole, Rect.mem_set_unit]
  exact Iff.rfl

/-- Row r is in the block of point r / 5000. -/
theorem covered (i : S50000x128.Idx) :
    ∃ t : Fin cfg0.N, (cfg0.win 5).flush t = true ∧ i ∈ ((cfg0.win 5).blk t).view.set := by
  have hi0 : (i 0).val < 50000 := (i 0).isLt
  have hi1 : (i 1).val < 128 := (i 1).isLt
  have hN : (i 0).val / 5000 < cfg0.N := lt_of_lt_of_eq (by omega : (i 0).val / 5000 < 10) N_0.symm
  obtain ⟨-, -, -, -, -, -, -, -, -, -, e0, e1⟩ := idx_facts ⟨(i 0).val / 5000, hN⟩
  refine ⟨⟨(i 0).val / 5000, hN⟩, flush0_5 _, ?_⟩
  rw [mem_block]
  intro a
  match a with
  | ⟨0, _⟩ =>
    show win0_5.index ⟨(i 0).val / 5000, hN⟩ (0 : Fin 2) * 5000 ≤ (i 0).val ∧ (i 0).val < win0_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win0_5.index ⟨(i 0).val / 5000, hN⟩ (1 : Fin 2) * 128 ≤ (i 1).val ∧ (i 1).val < win0_5.index ⟨(i 0).val / 5000, hN⟩ (1 : Fin 2) * 128 + 128
    rw [e1]; omega

/-- After the last point the result array is the layer of the whole operands. -/
theorem final (c : Dev nD) : (dat0 V c).arrAt 5 cfg0.N = whole V c :=
  (dat0 V c).arrAt_eq_of_cover 5 (whole V c) (fun t _ => flushed V c t) covered

end Cert.Sage.Hidden

end
-- ==== Proof.OutArray.lean ====
/-
  The second layer's kernel: the output features as one array.

  The grid has ten points; point t works on rows 5000·t … 5000·t + 4999 of the two left operands and of the result, and
  on the whole of the two weight matrices and of the bias row. Its kernel's stored block is the layer's features of those
  rows (the block-level reading of the body), and a row of the layer reads only the same row of the left operands, so
  what point t writes back is rows 5000·t … of ONE array: the layer of the whole operands as the kernel's region finds
  them. The ten blocks tile the 50000 rows (row r is in block r / 5000), so after the last point the result array is that
  layer, everywhere.
-/
import proofs.«138133_j4612794876017_1_alg».proof.Proof.Gen.KernelIdeal.Frame
import proofs.«138133_j4612794876017_1_alg».proof.Proof.Payload
import Idealize.ShloMosaic.Lib.Pipeline.Value

set_option maxRecDepth 16384

noncomputable section

namespace Cert.Sage.Out

open Cert.Sage Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open scoped BigOperators

-- the buffer contents when the kernel's region is entered: a parameter
variable (V : (c : Dev nD) → (b : Ref sig .tc) → Buf (Elt Ideal) ((c : Thread nD τ).loc b))

theorem zero_offsets : (![0, 0] : Fin 2 → Nat) = fun _ => 0 := funext fun a => by fin_cases a <;> rfl

/-- The printed index maps over the grid: the two left operands and the result move one block of rows per point, the
    weight matrices and the bias row stay. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

theorem point_lt (t : Fin cfg1.N) : t.val < 10 := lt_of_lt_of_eq t.isLt N_1

/-- The layer of the whole operands as the region finds them. -/
def whole (c : Dev nD) : S50000x64.Idx → EReal :=
  layer (M := 50000) (K := 128) (N := 64) (V c main_v43) (V c main_v24) (V c main_arg5) (V c main_arg6)
    (fun q => V c main_v44 (ix2 (0 : Fin 1) q))

/-- Row p of point t's block of the first left operand is row 5000·t + p of the array. -/
theorem left0_row (c : Dev nD) (t : Fin cfg1.N) (p : Fin 5000) (k : Fin 128) (P : Fin 50000) (hP : P.val = t.val * 5000 + p.val) :
    iblk1 V c 0 t (ix2 p k) = V c main_v43 (ix2 P k) := by
  obtain ⟨e0, e1, -⟩ := idx_facts t
  show V c main_v43 (((cfg1.win 0).blk t).view.emb (ix2 p k)) = V c main_v43 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- The same for the second left operand. -/
theorem left1_row (c : Dev nD) (t : Fin cfg1.N) (p : Fin 5000) (k : Fin 128) (P : Fin 50000) (hP : P.val = t.val * 5000 + p.val) :
    iblk1 V c 1 t (ix2 p k) = V c main_v24 (ix2 P k) := by
  obtain ⟨-, -, e0, e1, -⟩ := idx_facts t
  show V c main_v24 (((cfg1.win 1).blk t).view.emb (ix2 p k)) = V c main_v24 (ix2 P k)
  refine congrArg _ (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- Every point's block of the first weight matrix is the whole matrix. -/
theorem weight0_whole (c : Dev nD) (t : Fin cfg1.N) (k : Fin 128) (q : Fin 64) :
    iblk1 V c 2 t (ix2 k q) = V c main_arg5 (ix2 k q) := by
  obtain ⟨-, -, -, -, e0, e1, -⟩ := idx_facts t
  show V c main_arg5 (((cfg1.win 2).blk t).view.emb (ix2 k q)) = V c main_arg5 (ix2 k q)
  refine congrArg _ (funext fun a => Fin.ext ?_)
  match a with
  | ⟨0, _⟩ => show win1_2.index t (0 : Fin 2) * 128 + 1 * k.val = k.val; omega
  | ⟨1, _⟩ => show win1_2.index t (1 : Fin 2) * 64 + 1 * q.val = q.val; omega

/-- And of the second. -/
theorem weight1_whole (c : Dev nD) (t : Fin cfg1.N) (k : Fin 128) (q : Fin 64) :
    iblk1 V c 3 t (ix2 k q) = V c main_arg6 (ix2 k q) := by
  obtain ⟨-, -, -, -, -, -, e0, e1, -⟩ := idx_facts t
  show V c main_arg6 (((cfg1.win 3).blk t).view.emb (ix2 k q)) = V c main_arg6 (ix2 k q)
  refine congrArg _ (funext fun a => Fin.ext ?_)
  match a with
  | ⟨0, _⟩ => show win1_3.index t (0 : Fin 2) * 128 + 1 * k.val = k.val; omega
  | ⟨1, _⟩ => show win1_3.index t (1 : Fin 2) * 64 + 1 * q.val = q.val; omega

/-- Every point's block of the bias row is the whole row. -/
theorem bias_whole (c : Dev nD) (t : Fin cfg1.N) (q : Fin 64) :
    iblk1 V c 4 t (ix2 (0 : Fin 1) q) = V c main_v44 (ix2 (0 : Fin 1) q) := by
  obtain ⟨-, -, -, -, -, -, -, -, e0, e1, -⟩ := idx_facts t
  show V c main_v44 (((cfg1.win 4).blk t).view.emb (ix2 (0 : Fin 1) q)) = V c main_v44 (ix2 (0 : Fin 1) q)
  refine congrArg _ (funext fun a => Fin.ext ?_)
  match a with
  | ⟨0, _⟩ => show win1_4.index t (0 : Fin 2) * 1 + 1 * 0 = 0; omega
  | ⟨1, _⟩ => show win1_4.index t (1 : Fin 2) * 64 + 1 * q.val = q.val; omega

/-- The layer's feature (p, q) of a point's blocks is the layer's feature (5000·t + p, q) of the whole operands. -/
theorem block_feature (c : Dev nD) (t : Fin cfg1.N) (p : Fin 5000) (q : Fin 64) (P : Fin 50000) (hP : P.val = t.val * 5000 + p.val) :
    sageAt (iblk1 V c 0 t) (iblk1 V c 1 t) (iblk1 V c 2 t) (iblk1 V c 3 t) (fun q => iblk1 V c 4 t (ix2 (0 : Fin 1) q)) p q
      = sageAt (V c main_v43) (V c main_v24) (V c main_arg5) (V c main_arg6) (fun q => V c main_v44 (ix2 (0 : Fin 1) q)) P q := by
  unfold sageAt
  dsimp only
  rw [bias_whole V c t q]
  refine congrArg (· + _) (congrArg₂ (· + ·) (Finset.sum_congr rfl fun k _ => ?_) (Finset.sum_congr rfl fun k _ => ?_))
  · rw [left0_row V c t p k P hP, weight0_whole V c t k q]
  · rw [left1_row V c t p k P hP, weight1_whole V c t k q]

/-- What point t writes back is block t of the one array. -/
theorem flushed (c : Dev nD) (t : Fin cfg1.N) :
    (dat1 V c).flushed 5 t = ((cfg1.win 5).blk t).view.read (Elt Ideal) (whole V c) := by
  show (cfg1.win 5).cut (grid1.coords t) ((dat1 V c).after 5 t) = _
  rw [after1_5]
  unfold out1_5
  rw [View.canon_unit_zero zero_offsets]
  simp only [View.ld_unit_zero (S := S5000x128) zero_offsets, View.ld_unit_zero (S := S128x64) zero_offsets, View.ld_unit_zero (S := S1x64) zero_offsets]
  funext j
  obtain ⟨p, q, rfl⟩ : ∃ (p : Fin 5000) (q : Fin 64), j = ix2 p q := ⟨j 0, j 1, eq_ix2 j⟩
  have ht := point_lt t
  obtain ⟨-, -, -, -, -, -, -, -, -, -, e0, e1⟩ := idx_facts t
  have hrow : t.val * 5000 + p.val < 50000 := by omega
  have hemb : ((cfg1.win 5).blk t).view.emb (ix2 p q) = ix2 (⟨t.val * 5000 + p.val, hrow⟩ : Fin 50000) q :=
    funext fun a => Fin.ext (by
      match a with
      | ⟨0, _⟩ => show win1_5.index t (0 : Fin 2) * 5000 + 1 * p.val = t.val * 5000 + p.val; omega
      | ⟨1, _⟩ => show win1_5.index t (1 : Fin 2) * 64 + 1 * q.val = q.val; omega)
  show k1_pay1 (iblk1 V c 0 t) (iblk1 V c 1 t) (iblk1 V c 2 t) (iblk1 V c 3 t) (iblk1 V c 4 t) (ix2 p q)
    = whole V c (((cfg1.win 5).blk t).view.emb (ix2 p q))
  rw [hemb, out_block_apply]
  unfold whole
  rw [layer_apply, block_feature V c t p q ⟨t.val * 5000 + p.val, hrow⟩ rfl]

/-- An index of the array is in point t's block iff each coordinate is in the block's range on its axis. -/
theorem mem_block (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v45).slice (win1_5.rect t)).set ↔ _
  rw [View.set_slice_whole, Rect.mem_set_unit]
  exact Iff.rfl

/-- Row r is in the block of point r / 5000. -/
theorem covered (i : S50000x64.Idx) :
    ∃ t : Fin cfg1.N, (cfg1.win 5).flush t = true ∧ i ∈ ((cfg1.win 5).blk t).view.set := by
  have hi0 : (i 0).val < 50000 := (i 0).isLt
  have hi1 : (i 1).val < 64 := (i 1).isLt
  have hN : (i 0).val / 5000 < cfg1.N := lt_of_lt_of_eq (by omega : (i 0).val / 5000 < 10) N_1.symm
  obtain ⟨-, -, -, -, -, -, -, -, -, -, e0, e1⟩ := idx_facts ⟨(i 0).val / 5000, hN⟩
  refine ⟨⟨(i 0).val / 5000, hN⟩, flush1_5 _, ?_⟩
  rw [mem_block]
  intro a
  match a with
  | ⟨0, _⟩ =>
    show win1_5.index ⟨(i 0).val / 5000, hN⟩ (0 : Fin 2) * 5000 ≤ (i 0).val ∧ (i 0).val < win1_5.index ⟨(i 0).val / 5000, hN⟩ (0 : Fin 2) * 5000 + 5000
    rw [e0]; show (i 0).val / 5000 * 5000 ≤ (i 0).val ∧ (i 0).val < (i 0).val / 5000 * 5000 + 5000; omega
  | ⟨1, _⟩ =>
    show win1_5.index ⟨(i 0).val / 5000, hN⟩ (1 : Fin 2) * 64 ≤ (i 1).val ∧ (i 1).val < win1_5.index ⟨(i 0).val / 5000, hN⟩ (1 : Fin 2) * 64 + 64
    rw [e1]; omega

/-- After the last point the result array is the layer of the whole operands. -/
theorem final (c : Dev nD) : (dat1 V c).arrAt 5 cfg1.N = whole V c :=
  (dat1 V c).arrAt_eq_of_cover 5 (whole V c) (fun t _ => flushed V c t) covered

end Cert.Sage.Out

end
-- ==== Proof.KernelValue.lean ====
/-
  The idealized kernel computes the network.

  The result buffer's contents after the last stretch are a fold through the program's four stretches; read back:

  * the first host stretch leaves, for the first kernel, the mean over in-neighbours of the input features, the input
    features and the first pair of matrices as launched, and the first bias laid out as a row; it also leaves the edges'
    sources and destinations, which the second host stretch reads again;
  * the first kernel's region leaves the hidden layer of those — the hidden features of the network;
  * the second host stretch applies the same chain to the hidden features and lays the second bias out as a row;
  * the second kernel's region leaves the output layer of those.

  A bias laid out as a row [1, n] has the vector's entry q at (0, q), so the layers' biases are the arguments' entries.
-/
import proofs.«138133_j4612794876017_1_alg».proof.Proof.Gen.KernelIdeal.Frame
import proofs.«138133_j4612794876017_1_alg».proof.Proof.Network
import proofs.«138133_j4612794876017_1_alg».proof.Proof.HiddenArray
import proofs.«138133_j4612794876017_1_alg».proof.Proof.OutArray
import Idealize.ShloMosaic.Lib.StableHlo.Run
import Idealize.ShloMosaic.Lib.ValueLayout

set_option maxRecDepth 16384

noncomputable section

namespace Cert.Sage.Kernel

open Cert.Sage Cert.KernelIdeal Cert.KernelIdeal.Gen
open Idealize.ShloMosaic Idealize.ShloMosaic.TcCoe Idealize.ShloMosaic.StableHlo Idealize.ShloMosaic.ValueIdx
open Idealize.SL Idealize.SL.Sem

variable (m : (ℓ : Loc nD τ sig) → Buf (Elt Ideal) ℓ) (ρ : Dev nD → PrngReg)

/-! ## What the first host stretch leaves -/

theorem first_mean (c : Dev nD) :
    V1 m ρ c main_v22 = neighbourMean (m ((c.tc : Thread nD τ).loc main_arg0)) (edgeSources (m ((c.tc : Thread nD τ).loc main_arg1))) (edgeTargets (m ((c.tc : Thread nD τ).loc main_arg1))) := by
  show StableHlo.after hostOps0 (W0 m ρ c) (Proc.devRef .tc main_v22) = _
  after_results_simp
  rfl

theorem first_features (c : Dev nD) : V1 m ρ c main_arg0 = (m ((c.tc : Thread nD τ).loc main_arg0)) := by
  show StableHlo.after hostOps0 (W0 m ρ c) (Proc.devRef .tc main_arg0) = _
  after_results_simp

theorem first_left_matrix (c : Dev nD) : V1 m ρ c main_arg2 = (m ((c.tc : Thread nD τ).loc main_arg2)) := by
  show StableHlo.after hostOps0 (W0 m ρ c) (Proc.devRef .tc main_arg2) = _
  after_results_simp

theorem first_right_matrix (c : Dev nD) : V1 m ρ c main_arg3 = (m ((c.tc : Thread nD τ).loc main_arg3)) := by
  show StableHlo.after hostOps0 (W0 m ρ c) (Proc.devRef .tc main_arg3) = _
  after_results_simp

theorem first_bias_row (c : Dev nD) : V1 m ρ c main_v23 = shapeCast S1x128 (m ((c.tc : Thread nD τ).loc main_arg4)) shapeCasts_S128_S1x128 := by
  show StableHlo.after hostOps0 (W0 m ρ c) (Proc.devRef .tc main_v23) = _
  after_results_simp
  rfl

/-! ## What the first region leaves, and what it leaves alone -/

/-- The hidden features of the network, in the first kernel's result array. -/
theorem hidden_value (c : Dev nD) :
    W2 m ρ c (Proc.devRef .tc main_v24) = hiddenFeatures (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W2_arr m ρ c 5).trans ?_
  rw [Hidden.final (V1 m ρ) c]
  unfold Hidden.whole hiddenFeatures
  rw [first_mean m ρ c, first_features m ρ c, first_left_matrix m ρ c, first_right_matrix m ρ c, first_bias_row m ρ c]
  exact congrArg (layerMax _ _ _ _ _) (funext fun q => shapeCast_a_1a_apply _ _ 0 q)

theorem kept_sources (c : Dev nD) : W2 m ρ c (Proc.devRef .tc main_v1) = edgeSources (m ((c.tc : Thread nD τ).loc main_arg1)) := by
  rw [W2_of_ne m ρ c main_v1 (by decide)]
  show StableHlo.after hostOps0 (W0 m ρ c) (Proc.devRef .tc main_v1) = _
  after_results_simp
  rfl

theorem kept_targets (c : Dev nD) : W2 m ρ c (Proc.devRef .tc main_v3) = edgeTargets (m ((c.tc : Thread nD τ).loc main_arg1)) := by
  rw [W2_of_ne m ρ c main_v3 (by decide)]
  show StableHlo.after hostOps0 (W0 m ρ c) (Proc.devRef .tc main_v3) = _
  after_results_simp
  rfl

theorem kept_left_matrix (c : Dev nD) : W2 m ρ c (Proc.devRef .tc main_arg5) = (m ((c.tc : Thread nD τ).loc main_arg5)) := by
  rw [W2_of_ne m ρ c main_arg5 (by decide)]
  show StableHlo.after hostOps0 (W0 m ρ c) (Proc.devRef .tc main_arg5) = _
  after_results_simp

theorem kept_right_matrix (c : Dev nD) : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results_simp

theorem kept_bias (c : Dev nD) : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results_simp

/-! ## What the second host stretch leaves -/

theorem second_mean (c : Dev nD) :
    V3 m ρ c main_v43 = neighbourMean (W2 m ρ c (Proc.devRef .tc main_v24)) (W2 m ρ c (Proc.devRef .tc main_v1)) (W2 m ρ c (Proc.devRef .tc main_v3)) := by
  show StableHlo.after hostOps1 (W2 m ρ c) (Proc.devRef .tc main_v43) = _
  after_results_simp
  rfl

theorem second_features (c : Dev nD) : V3 m ρ c main_v24 = W2 m ρ c (Proc.devRef .tc main_v24) := by
  show StableHlo.after hostOps1 (W2 m ρ c) (Proc.devRef .tc main_v24) = _
  after_results_simp

theorem second_left_matrix (c : Dev nD) : V3 m ρ c main_arg5 = W2 m ρ c (Proc.devRef .tc main_arg5) := by
  show StableHlo.after hostOps1 (W2 m ρ c) (Proc.devRef .tc main_arg5) = _
  after_results_simp

theorem second_right_matrix (c : Dev nD) : V3 m ρ c main_arg6 = W2 m ρ c (Proc.devRef .tc main_arg6) := by
  show StableHlo.after hostOps1 (W2 m ρ c) (Proc.devRef .tc main_arg6) = _
  after_results_simp

theorem second_bias_row (c : Dev nD) :
    V3 m ρ c main_v44 = shapeCast S1x64 (W2 m ρ c (Proc.devRef .tc main_arg7)) shapeCasts_S64_S1x64 := by
  show StableHlo.after hostOps1 (W2 m ρ c) (Proc.devRef .tc main_v44) = _
  after_results_simp
  rfl

/-! ## The result -/

/-- After the last stretch the result buffer holds the network of the launch contents of the eight arguments. -/
theorem result_value (c : Dev nD) :
    W4 m ρ c (Proc.devRef .tc main_v45)
      = network (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W4_arr m ρ c 5).trans ?_
  rw [Out.final (V3 m ρ) c]
  unfold Out.whole network outputFeatures
  rw [second_mean m ρ c, second_features m ρ c, second_left_matrix m ρ c, second_right_matrix m ρ c, second_bias_row m ρ c,
    hidden_value m ρ c, kept_sources m ρ c, kept_targets m ρ c, kept_left_matrix m ρ c, kept_right_matrix m ρ c, kept_bias m ρ c]
  exact congrArg (layer _ _ _ _) (funext fun q => shapeCast_a_1a_apply _ _ 0 q)

end Cert.Sage.Kernel

end
-- ==== Proof.LibHostDense.lean ====
/-
  A dense layer of a host program read at coordinates, at the extended reals.

  A `dot_general` of an `[M, K]` array by a `[K, N]` matrix that contracts the left operand's columns with the right
  operand's rows and has no batch axis is, at `(p, q)`, the sum over `k` of `l (p, k) · W (k, q)`: the product into a zero
  accumulator and the host's product are one sum. A length-`N` vector laid out as the row `[1, N]` (`broadcast_in_dim`
  along axis 1) and repeated over `M` rows reads, at `(p, q)`, the vector at `q`; a scalar repeated over an array reads the
  scalar at every index. Together they read a rectified dense layer, `max (l · W + b) c`, at `(p, q)`.
-/
import proofs.«138133_j4612794876017_1_alg».proof.Proof.LibPlainDot
import Idealize.ShloMosaic.Lib.Pipeline.Value

noncomputable section

namespace Cert.LibHostDense

open Idealize.ShloMosaic Idealize.ShloMosaic.ValueIdx
open scoped BigOperators

variable {α : Type}

/-- The host's product at `(p, q)`. -/
theorem hostDot_plain_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (r : FVec Ideal ⟨2, ![K, N]⟩ φ₂) (p : Fin M) (q : Fin N) :
    Host.dotGeneral d prec l r (ix2 p q) = ∑ k : Fin K, l (ix2 p k) * r (ix2 k q) := by
  show FloatOps.dotGeneral d prec .single l r (ix2 p q) = _
  rw [Ideal.dotGeneral_apply, ← Ideal.matmul_constant_zero_apply d prec]
  exact Cert.LibPlainDot.matmul_plain_apply d hlc hrc hlb hrb hln hrn prec l r p q

/-- A length-`n` vector laid out as the row `[1, n]` reads, at `(0, q)`, the vector at `q`. -/
theorem bcastRow_apply {n : ℕ} (x : (⟨1, ![n]⟩ : Shape).Idx → α)
    (h : (⟨1, ![n]⟩ : Shape).BroadcastsInDim ⟨2, ![1, n]⟩ (![1] : Fin 1 → Fin 2)) (u : Fin 1) (q : Fin n) :
    broadcastInDim ⟨2, ![1, n]⟩ ![1] h x (ix2 u q) = x (ix1 q) := by
  refine broadcastInDim_apply _ h x (ix2 u q) (ix1 q) fun a => ?_
  match a with
  | ⟨0, _⟩ =>
    show q.val = if n = 1 then 0 else q.val
    split
    · have := q.isLt; omega
    · rfl

/-- A row `[1, n]` repeated over `m` rows reads, at `(p, q)`, the row at `q`. -/
theorem bcastRows_apply {m n : ℕ} (x : (⟨2, ![1, n]⟩ : Shape).Idx → α)
    (h : (⟨2, ![1, n]⟩ : Shape).BroadcastsInDim ⟨2, ![m, n]⟩ (![0, 1] : Fin 2 → Fin 2)) (p : Fin m) (q : Fin n) :
    broadcastInDim ⟨2, ![m, n]⟩ ![0, 1] h x (ix2 p q) = x (ix2 (0 : Fin 1) q) := by
  refine broadcastInDim_apply _ h x (ix2 p q) (ix2 (0 : Fin 1) q) fun a => ?_
  match a with
  | ⟨0, _⟩ => show 0 = if (1 : ℕ) = 1 then 0 else p.val; rw [if_pos rfl]
  | ⟨1, _⟩ =>
    show q.val = if n = 1 then 0 else q.val
    split
    · have := q.isLt; omega
    · rfl

/-- A scalar repeated over an array reads the scalar at every index. -/
theorem bcastScalar_apply {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A rectified dense layer of a host program at `(p, q)`: the product, the bias row repeated over the rows, the
    maximum with a repeated scalar constant. -/
theorem hostDenseMax_apply {M K N : ℕ} (d : DotDims ⟨2, ![M, K]⟩ ⟨2, ![K, N]⟩ ⟨2, ![M, N]⟩) {φ₁ φ₂ : FTy}
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (l : FVec Ideal ⟨2, ![M, K]⟩ φ₁) (W : FVec Ideal ⟨2, ![K, N]⟩ φ₂)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2))
    (h0 : (⟨0, ![]⟩ : Shape).BroadcastsInDim ⟨2, ![M, N]⟩ (![] : Fin 0 → Fin 2)) (w : BitVec 32) (p : Fin M) (q : Fin N) :
    maximumf (addf (Host.dotGeneral d prec l W)
        (broadcastInDim ⟨2, ![M, N]⟩ ![0, 1] h2 (broadcastInDim ⟨2, ![1, N]⟩ ![1] h1 b)))
      (broadcastInDim ⟨2, ![M, N]⟩ ![] h0 (constant (F := Ideal) ⟨0, ![]⟩ .f32 w)) (ix2 p q)
      = max ((∑ k : Fin K, l (ix2 p k) * W (ix2 k q)) + b (ix1 q)) (Ideal.ofBits .f32 w) := by
  rw [maximumf_apply, addf_apply, hostDot_plain_apply d hlc hrc hlb hrb hln hrn, bcastRows_apply, bcastRow_apply,
    bcastScalar_apply, constant_apply]

end Cert.LibHostDense

end
-- ==== Proof.RefValue.lean ====
/-
  The reference computes the network.

  Its program is a straight line of host operations. Read one operation at a time: the mean over in-neighbours of the
  input features is the chain named once for both programs; the two matrix products, their sum, the bias row repeated
  over the rows and the maximum with a repeated zero are, at (p, q), the hidden layer's feature — a host product of an
  [M, K] array by a [K, N] matrix is the plain sum over k —; the same chain then takes the hidden features; and the last
  two products, their sum and the second bias are the output layer's feature.
-/
import proofs.«138133_j4612794876017_1_alg».proof.Proof.Gen.ReferenceIdeal.Read
import proofs.«138133_j4612794876017_1_alg».proof.Proof.Network
import proofs.«138133_j4612794876017_1_alg».proof.Proof.LibHostDense

noncomputable section

namespace Cert.Sage.Ref

open Cert.Sage Cert.LibHostDense Idealize.ShloMosaic Idealize.ShloMosaic.ValueIdx Cert.ReferenceIdeal Cert.ReferenceIdeal.Read

variable (x0 : (⟨S50000x128, .f32⟩ : BufTy).Contents (Elt Ideal)) (x1 : (⟨S2x1600000, .i32⟩ : BufTy).Contents (Elt Ideal))
  (x2 x3 : (⟨S128x128, .f32⟩ : BufTy).Contents (Elt Ideal)) (x4 : (⟨S128, .f32⟩ : BufTy).Contents (Elt Ideal))
  (x5 x6 : (⟨S128x64, .f32⟩ : BufTy).Contents (Elt Ideal)) (x7 : (⟨S64, .f32⟩ : BufTy).Contents (Elt Ideal))

/-- The reference's first mean over in-neighbours is the common chain at the input features. -/
theorem mean_first : val_main_v22 (F := Ideal) x0 x1 = neighbourMean x0 (edgeSources x1) (edgeTargets x1) := rfl

/-- Its second one is the common chain at its hidden features. -/
theorem mean_second :
    val_main_v48 (F := Ideal) x0 x1 x2 x3 x4 = neighbourMean (val_main_v29 (F := Ideal) x0 x1 x2 x3 x4) (edgeSources x1) (edgeTargets x1) := rfl

/-- The reference's hidden features are the network's. -/
theorem hidden_eq : val_main_v29 (F := Ideal) x0 x1 x2 x3 x4 = hiddenFeatures x0 x1 x2 x3 x4 := by
  funext i
  obtain ⟨p, q, rfl⟩ : ∃ (p : Fin 50000) (q : Fin 128), i = ix2 p q := ⟨i 0, i 1, eq_ix2 i⟩
  unfold hiddenFeatures
  rw [layerMax_apply, ← mean_first]
  unfold val_main_v29 val_main_v28 val_main_v25 val_main_v23 val_main_v24 val_main_v27 val_main_v26 val_main_call0_v0 val_main_call0_cst sageAt
  generalize val_main_v22 (F := Ideal) x0 x1 = a
  rw [maximumf_apply, addf_apply, addf_apply, hostDot_plain_apply _ rfl rfl rfl rfl rfl rfl,
    hostDot_plain_apply _ rfl rfl rfl rfl rfl rfl, bcastRows_apply, bcastRow_apply, bcastScalar_apply, constant_apply]

/-- The reference's result is the network of its arguments. -/
theorem result_eq : val_main_v54 (F := Ideal) x0 x1 x2 x3 x4 x5 x6 x7 = network x0 x1 x2 x3 x4 x5 x6 x7 := by
  funext i
  obtain ⟨p, q, rfl⟩ : ∃ (p : Fin 50000) (q : Fin 64), i = ix2 p q := ⟨i 0, i 1, eq_ix2 i⟩
  unfold network outputFeatures
  rw [layer_apply, ← hidden_eq, ← mean_second]
  unfold val_main_v54 val_main_v51 val_main_v49 val_main_v50 val_main_v53 val_main_v52 sageAt
  generalize val_main_v48 (F := Ideal) x0 x1 x2 x3 x4 = a
  generalize val_main_v29 (F := Ideal) x0 x1 x2 x3 x4 = h
  rw [addf_apply, addf_apply, hostDot_plain_apply _ rfl rfl rfl rfl rfl rfl,
    hostDot_plain_apply _ rfl rfl rfl rfl rfl rfl, bcastRows_apply, bcastRow_apply]

end Cert.Sage.Ref

end
-- ==== Proof.lean ====
/-
  A two-layer graph network on 50000 nodes and 1.6 million edges: a program that computes the dense part of each layer
  block by block in a kernel, against a reference that computes it with whole-array operations; equal on the extended reals.

  Each layer takes every node's mean over its in-neighbours' features (a gather along the edges, a scatter-add at the
  destinations, a division by the in-degree or by one) and maps (mean, own features) to
      mean · W_l + own · W_r + b,
  the first layer followed by a maximum with zero. Both programs take the means by the same chain of host operations.
  The reference computes the dense part by two host matrix products over all 50000 rows at once; the kernel computes it
  ten times on blocks of 5000 rows, after rounding its operands to a narrower float format. On the extended reals the
  rounding is the identity, a product into a zero accumulator and the host's product are the same sum over k, and a row
  of a layer reads only the same row of its left operands; so the ten blocks are the rows of ONE array, the layer of the
  whole operands, and that is what the reference computes. The two sides add their three terms in the same order, so no
  law of arithmetic beyond that is used and the finiteness of the inputs is never needed.

  The modules: Layer (a layer at coordinates), Mean (the common chain, named and never opened), Network (the function
  both sides compute), Payload (what a kernel stores, at coordinates), HiddenArray / OutArray (blocks to whole arrays),
  KernelRun (the kernel program's run with its result kept), KernelValue (its result is the network), RefValue (the
  reference's result is the network).
-/
import proofs.«138133_j4612794876017_1_alg».proof.Defs
import proofs.«138133_j4612794876017_1_alg».proof.Proof.Gen.Kernel
import proofs.«138133_j4612794876017_1_alg».proof.Proof.Gen.Kernel.Skeleton
import proofs.«138133_j4612794876017_1_alg».proof.Proof.Gen.Kernel.Launch
import proofs.«138133_j4612794876017_1_alg».proof.Proof.Gen.Kernel.Points
import proofs.«138133_j4612794876017_1_alg».proof.Proof.Gen.Kernel.Frame
import proofs.«138133_j4612794876017_1_alg».proof.Proof.Gen.KernelIdeal
import proofs.«138133_j4612794876017_1_alg».proof.Proof.Gen.KernelIdeal.Skeleton
import proofs.«138133_j4612794876017_1_alg».proof.Proof.Gen.KernelIdeal.Launch
import proofs.«138133_j4612794876017_1_alg».proof.Proof.Gen.KernelIdeal.Points
import proofs.«138133_j4612794876017_1_alg».proof.Proof.Gen.KernelIdeal.Frame
import proofs.«138133_j4612794876017_1_alg».proof.Proof.Gen.ReferenceIdeal
import proofs.«138133_j4612794876017_1_alg».proof.Proof.Gen.Pre_finite_inputs
import proofs.«138133_j4612794876017_1_alg».proof.Proof.Gen.ReferenceIdeal.Run
import proofs.«138133_j4612794876017_1_alg».proof.Proof.Gen.ReferenceIdeal.Read
import proofs.«138133_j4612794876017_1_alg».proof.Proof.KernelRun
import proofs.«138133_j4612794876017_1_alg».proof.Proof.KernelValue
import proofs.«138133_j4612794876017_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized one. -/
theorem frame_kernel_ideal : Cert.frame_KernelIdeal := fun m ρ _ => Cert.KernelIdeal.Gen.frame m ρ

/-- So does the reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealized kernel and the idealized reference, from memories that agree on the eight arguments, both end with the
    network of those arguments in their result buffers. -/
theorem algebraic : Cert.algebraic_KernelIdeal_ReferenceIdeal := by
  intro m ρ m' ρ' _ hagree
  refine ⟨fun c => Cert.Sage.network (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.Sage.Kernel.result_value m ρ c), (h c).2⟩) (Cert.Sage.Run.run_main m ρ)
  · refine (θ_run Cert.ReferenceIdeal.defs _ _).mono (fun r h c => ⟨?_, (h c).2⟩)
      (Cert.ReferenceIdeal.Value.run (F := Ideal) m' ρ')
    obtain ⟨e0, e1, e2, e3, e4, e5, e6, e7⟩ := hagree c
    rw [(h c).1, Cert.ReferenceIdeal.Read.val_main_v54_eq, Cert.Sage.Ref.result_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
